-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x96x96 : Shape := ⟨4, ![16, 512, 96, 96]⟩
abbrev S32x512 : Shape := ⟨2, ![32, 512]⟩
abbrev S32 : Shape := ⟨1, ![32]⟩
abbrev S_ : Shape := ⟨0, ![]⟩

class Facts : Prop where
  bcast_S_S16x512x96x96 : S_.BroadcastsInDim S16x512x96x96 (![] : Fin 0 → Fin S16x512x96x96.rank)
  reducesTo_S16x512x96x96_S_d0_1_2_3 : S16x512x96x96.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x512x96x96 .f32) (main_arg1 : FVec F S32x512 .f32) (main_arg2 : FVec F S32 .f32) : IVec S_ 1 :=
  let main_v0 : FVec F S16x512x96x96 .f32 := Host.absf main_arg0
  let main_cst : FVec F S_ .f32 := constant S_ .f32 0x7F800000#32
  let main_v1 : FVec F S16x512x96x96 .f32 := broadcastInDim S16x512x96x96 ![] bcast_S_S16x512x96x96 main_cst
  let main_v2 : IVec S16x512x96x96 1 := cmpf .olt main_v0 main_v1
  let main_c : IVec S_ 1 := constantI S_ 1 1#1
  let main_v3 : IVec S_ 1 := (fun x v => Host.reduce IntOp.andi x v reducesTo_S16x512x96x96_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x512x96x96 : Shape := ⟨4, ![16, 512, 96, 96]⟩
abbrev S32x512 : Shape := ⟨2, ![32, 512]⟩
abbrev S32 : Shape := ⟨1, ![32]⟩
abbrev S16x512x9216 : Shape := ⟨3, ![16, 512, 9216]⟩
abbrev S32x1 : Shape := ⟨2, ![32, 1]⟩
abbrev S_ : Shape := ⟨0, ![]⟩
abbrev S16x32x512 : Shape := ⟨3, ![16, 32, 512]⟩
abbrev S1x512x4608 : Shape := ⟨3, ![1, 512, 4608]⟩
abbrev S1x32x512 : Shape := ⟨3, ![1, 32, 512]⟩
abbrev S512x4608 : Shape := ⟨2, ![512, 4608]⟩
abbrev S4608 : Shape := ⟨1, ![4608]⟩
abbrev S1x4608 : Shape := ⟨2, ![1, 4608]⟩
abbrev S32x4608 : Shape := ⟨2, ![32, 4608]⟩

abbrev nBuf : Space → Nat
  | .hbm => 11
  | .vmem => 9
  | .smem => 0
  | _ => 0

abbrev bufTy : (tb : Table) → Fin (tcTables nBuf tb) → BufTy
  | .hbm, ⟨0, _⟩ => ⟨S16x512x96x96, .f32⟩
  | .hbm, ⟨1, _⟩ => ⟨S32x512, .f32⟩
  | .hbm, ⟨2, _⟩ => ⟨S32, .f32⟩
  | .hbm, ⟨3, _⟩ => ⟨S16x512x9216, .f32⟩
  | .hbm, ⟨4, _⟩ => ⟨S32x1, .f32⟩
  | .hbm, ⟨5, _⟩ => ⟨S32x512, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S32x512, .bf16⟩
  | .hbm, ⟨10, _⟩ => ⟨S16x32x512, .f32⟩
  | .local _ .vmem, ⟨0, _⟩ => ⟨S1x512x4608, .f32⟩
  | .local _ .vmem, ⟨1, _⟩ => ⟨S1x512x4608, .f32⟩
  | .local _ .vmem, ⟨2, _⟩ => ⟨S32x512, .f32⟩
  | .local _ .vmem, ⟨3, _⟩ => ⟨S32x512, .bf16⟩
  | .local _ .vmem, ⟨4, _⟩ => ⟨S32x1, .f32⟩
  | .local _ .vmem, ⟨5, _⟩ => ⟨S32x1, .f32⟩
  | .local _ .vmem, ⟨6, _⟩ => ⟨S1x32x512, .f32⟩
  | .local _ .vmem, ⟨7, _⟩ => ⟨S1x32x512, .f32⟩
  | .local _ .vmem, ⟨8, _⟩ => ⟨S32x1, .f32⟩
  | _, _ => ⟨S16x512x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x512x96x96_S16x512x9216 : S16x512x96x96.ShapeCasts S16x512x9216
  shapeCasts_S32_S32x1 : S32.ShapeCasts S32x1
  reducesTo_S32x512_S32_d1 : S32x512.ReducesTo [1] S32
  h_S_ : 0 < S_.numel
  bcast_S32_S32x1_0 : S32.BroadcastsInDim S32x1 (![0] : Fin 1 → Fin S32x1.rank)
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x512x4608_S1x512x4608_0_0_0 : ∀ a, (![0, 0, 0] : Fin 3 → Nat) a + S1x512x4608.size a ≤ S1x512x4608.size a
  h_S1x512x4608 : 0 < S1x512x4608.numel
  shapeCasts_S1x512x4608_S512x4608 : S1x512x4608.ShapeCasts S512x4608
  inb_S32x512_S32x512_0_0 : ∀ a, (![0, 0] : Fin 2 → Nat) a + S32x512.size a ≤ S32x512.size a
  h_S32x512 : 0 < S32x512.numel
  shapeCasts_S32x512_S32x512 : S32x512.ShapeCasts S32x512
  reduces_S512x4608_S4608 : S512x4608.Reduces [0] S4608
  shapeCasts_S4608_S1x4608 : S4608.ShapeCasts S1x4608
  broadcasts_S1x4608_S32x4608 : S1x4608.Broadcasts S32x4608
  broadcasts_S32x1_S32x4608 : S32x1.Broadcasts S32x4608
  reduces_S32x4608_S4608 : S32x4608.Reduces [0] S4608
  reduces_S32x4608_S32 : S32x4608.Reduces [1] S32
  broadcasts_S32x1_S32x512 : S32x1.Broadcasts S32x512
  dot_S32x512_S512x4608_S32x4608_1_0_0_1_n_n_wf : DotDims.WF S32x512 S512x4608 S32x4608 [1] [0] [0] [1] [] []
  dot_S32x4608_S512x4608_S32x512_1_1_0_0_n_n_wf : DotDims.WF S32x4608 S512x4608 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4608.size a ≤ S16x512x9216.size a
  hwx0_0 : ∀ i : grid0.Coords, EltTy.bits .f32 = 32 ∨ (Rect.block (s := S16x512x9216) S1x512x4608.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .bf16 = 32 ∨ (Rect.block (s := S32x512) S32x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512.size a ≤ S16x32x512.size a
  hwx0_5 : ∀ i : grid0.Coords, EltTy.bits .f32 = 32 ∨ (Rect.block (s := S16x32x512) S1x32x512.size (cc0_transform_5 i) (hinb0_5 i)).WholeWords (EltTy.packing .f32)

variable [Facts₀]

def dot_S32x512_S512x4608_S32x4608_1_0_0_1_n_n : DotDims S32x512 S512x4608 S32x4608 where
  lhsContracting := [1]
  rhsContracting := [0]
  lhsNonContracting := [0]
  rhsNonContracting := [1]
  lhsBatch := []
  rhsBatch := []
  wf := dot_S32x512_S512x4608_S32x4608_1_0_0_1_n_n_wf
def dot_S32x4608_S512x4608_S32x512_1_1_0_0_n_n : DotDims S32x4608 S512x4608 S32x512 where
  lhsContracting := [1]
  rhsContracting := [1]
  lhsNonContracting := [0]
  rhsNonContracting := [0]
  lhsBatch := []
  rhsBatch := []
  wf := dot_S32x4608_S512x4608_S32x512_1_1_0_0_n_n_wf

abbrev win0_0 : Pipeline.Window sig grid0 :=
  Pipeline.Window.ofSpec (Memref.whole main_v0) S1x512x4608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x96x96 : Shape := ⟨4, ![16, 512, 96, 96]⟩
abbrev S32x512 : Shape := ⟨2, ![32, 512]⟩
abbrev S32 : Shape := ⟨1, ![32]⟩
abbrev S16x512x9216 : Shape := ⟨3, ![16, 512, 9216]⟩
abbrev S16x9216x512 : Shape := ⟨3, ![16, 9216, 512]⟩
abbrev S_ : Shape := ⟨0, ![]⟩
abbrev S16x9216 : Shape := ⟨2, ![16, 9216]⟩
abbrev S16x9216x1 : Shape := ⟨3, ![16, 9216, 1]⟩
abbrev S16x9216x32 : Shape := ⟨3, ![16, 9216, 32]⟩
abbrev S1x1x32 : Shape := ⟨3, ![1, 1, 32]⟩
abbrev S16x32x512 : Shape := ⟨3, ![16, 32, 512]⟩
abbrev S16x32 : Shape := ⟨2, ![16, 32]⟩
abbrev S16x32x1 : Shape := ⟨3, ![16, 32, 1]⟩
abbrev S1x32x512 : Shape := ⟨3, ![1, 32, 512]⟩

abbrev nBuf : Space → Nat
  | .hbm => 47
  | .vmem => 0
  | .smem => 0
  | _ => 0

abbrev bufTy : (tb : Table) → Fin (tcTables nBuf tb) → BufTy
  | .hbm, ⟨0, _⟩ => ⟨S16x512x96x96, .f32⟩
  | .hbm, ⟨1, _⟩ => ⟨S32x512, .f32⟩
  | .hbm, ⟨2, _⟩ => ⟨S32, .f32⟩
  | .hbm, ⟨3, _⟩ => ⟨S16x512x9216, .f32⟩
  | .hbm, ⟨4, _⟩ => ⟨S16x9216x512, .f32⟩
  | .hbm, ⟨5, _⟩ => ⟨S16x9216x512, .f32⟩
  | .hbm, ⟨6, _⟩ => ⟨S_, .f32⟩
  | .hbm, ⟨7, _⟩ => ⟨S16x9216, .f32⟩
  | .hbm, ⟨8, _⟩ => ⟨S16x9216x1, .f32⟩
  | .hbm, ⟨9, _⟩ => ⟨S32x512, .f32⟩
  | .hbm, ⟨10, _⟩ => ⟨S_, .f32⟩
  | .hbm, ⟨11, _⟩ => ⟨S32, .f32⟩
  | .hbm, ⟨12, _⟩ => ⟨S16x9216x32, .f32⟩
  | .hbm, ⟨13, _⟩ => ⟨S_, .f32⟩
  | .hbm, ⟨14, _⟩ => ⟨S16x9216x32, .f32⟩
  | .hbm, ⟨15, _⟩ => ⟨S16x9216x32, .f32⟩
  | .hbm, ⟨16, _⟩ => ⟨S16x9216x32, .f32⟩
  | .hbm, ⟨17, _⟩ => ⟨S16x9216x32, .f32⟩
  | .hbm, ⟨18, _⟩ => ⟨S1x1x32, .f32⟩
  | .hbm, ⟨19, _⟩ => ⟨S16x9216x32, .f32⟩
  | .hbm, ⟨20, _⟩ => ⟨S16x9216x32, .f32⟩
  | .hbm, ⟨21, _⟩ => ⟨S1x1x32, .f32⟩
  | .hbm, ⟨22, _⟩ => ⟨S16x9216x32, .f32⟩
  | .hbm, ⟨23, _⟩ => ⟨S16x9216x32, .f32⟩
  | .hbm, ⟨24, _⟩ => ⟨S_, .f32⟩
  | .hbm, ⟨25, _⟩ => ⟨S16x9216, .f32⟩
  | .hbm, ⟨26, _⟩ => ⟨S_, .f32⟩
  | .hbm, ⟨27, _⟩ => ⟨S16x9216, .f32⟩
  | .hbm, ⟨28, _⟩ => ⟨S16x9216, .f32⟩
  | .hbm, ⟨29, _⟩ => ⟨S16x9216x1, .f32⟩
  | .hbm, ⟨30, _⟩ => ⟨S16x9216x32, .f32⟩
  | .hbm, ⟨31, _⟩ => ⟨S16x9216x32, .f32⟩
  | .hbm, ⟨32, _⟩ => ⟨S16x9216x32, .f32⟩
  | .hbm, ⟨33, _⟩ => ⟨S_, .f32⟩
  | .hbm, ⟨34, _⟩ => ⟨S16x9216, .f32⟩
  | .hbm, ⟨35, _⟩ => ⟨S16x9216x1, .f32⟩
  | .hbm, ⟨36, _⟩ => ⟨S16x9216x32, .f32⟩
  | .hbm, ⟨37, _⟩ => ⟨S16x9216x32, .f32⟩
  | .hbm, ⟨38, _⟩ => ⟨S16x32x512, .f32⟩
  | .hbm, ⟨39, _⟩ => ⟨S_, .f32⟩
  | .hbm, ⟨40, _⟩ => ⟨S16x32, .f32⟩
  | .hbm, ⟨41, _⟩ => ⟨S16x32x1, .f32⟩
  | .hbm, ⟨42, _⟩ => ⟨S1x32x512, .f32⟩
  | .hbm, ⟨43, _⟩ => ⟨S16x32x512, .f32⟩
  | .hbm, ⟨44, _⟩ => ⟨S16x32x512, .f32⟩
  | .hbm, ⟨45, _⟩ => ⟨S16x32x512, .f32⟩
  | .hbm, ⟨46, _⟩ => ⟨S16x32x512, .f32⟩
  | _, _ => ⟨S16x512x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S16x512x96x96_S16x512x9216 : S16x512x96x96.ShapeCasts S16x512x9216
  transposes_S16x512x9216_S16x9216x512_0_2_1 : S16x512x9216.Transposes [0, 2, 1] S16x9216x512
  reducesTo_S16x9216x512_S16x9216_d2 : S16x9216x512.ReducesTo [2] S16x9216
  h_S_ : 0 < S_.numel
  bcast_S16x9216_S16x9216x1_0_1 : S16x9216.BroadcastsInDim S16x9216x1 (![0, 1] : Fin 2 → Fin S16x9216x1.rank)
  reducesTo_S32x512_S32_d1 : S32x512.ReducesTo [1] S32
  bcast_S_S16x9216x32 : S_.BroadcastsInDim S16x9216x32 (![] : Fin 0 → Fin S16x9216x32.rank)
  bcast_S16x9216x1_S16x9216x32_0_1_2 : S16x9216x1.BroadcastsInDim S16x9216x32 (![0, 1, 2] : Fin 3 → Fin S16x9216x32.rank)
  bcast_S32_S1x1x32_2 : S32.BroadcastsInDim S1x1x32 (![2] : Fin 1 → Fin S1x1x32.rank)
  bcast_S1x1x32_S16x9216x32_0_1_2 : S1x1x32.BroadcastsInDim S16x9216x32 (![0, 1, 2] : Fin 3 → Fin S16x9216x32.rank)
  reducesTo_S16x9216x32_S16x9216_d2 : S16x9216x32.ReducesTo [2] S16x9216
  bcast_S_S16x9216 : S_.BroadcastsInDim S16x9216 (![] : Fin 0 → Fin S16x9216.rank)
  reducesTo_S16x9216x32_S16x32_d1 : S16x9216x32.ReducesTo [1] S16x32
  bcast_S16x32_S16x32x1_0_1 : S16x32.BroadcastsInDim S16x32x1 (![0, 1] : Fin 2 → Fin S16x32x1.rank)
  bcast_S32x512_S1x32x512_1_2 : S32x512.BroadcastsInDim S1x32x512 (![1, 2] : Fin 2 → Fin S1x32x512.rank)
  bcast_S16x32x1_S16x32x512_0_1_2 : S16x32x1.BroadcastsInDim S16x32x512 (![0, 1, 2] : Fin 3 → Fin S16x32x512.rank)
  bcast_S1x32x512_S16x32x512_0_1_2 : S1x32x512.BroadcastsInDim S16x32x512 (![0, 1, 2] : Fin 3 → Fin S16x32x512.rank)
  dot_S16x9216x512_S32x512_S16x9216x32_2_1_01_0_n_n_wf : DotDims.WF S16x9216x512 S32x512 S16x9216x32 [2] [1] [0, 1] [0] [] []
  dot_S16x9216x32_S16x9216x512_S16x32x512_1_1_2_2_0_0_wf : DotDims.WF S16x9216x32 S16x9216x512 S16x32x512 [1] [1] [2] [2] [0] [0]

variable [Facts₀]

def dot_S16x9216x512_S32x512_S16x9216x32_2_1_01_0_n_n : DotDims S16x9216x512 S32x512 S16x9216x32 where
  lhsContracting := [2]
  rhsContracting := [1]
  lhsNonContracting := [0, 1]
  rhsNonContracting := [0]
  lhsBatch := []
  rhsBatch := []
  wf := dot_S16x9216x512_S32x512_S16x9216x32_2_1_01_0_n_n_wf
def dot_S16x9216x32_S16x9216x512_S16x32x512_1_1_2_2_0_0 : DotDims S16x9216x32 S16x9216x512 S16x32x512 where
  lhsContracting := [1]
  rhsContracting := [1]
  lhsNonContracting := [2]
  rhsNonContracting := [2]
  lhsBatch := [0]
  rhsBatch := [0]
  wf := dot_S16x9216x32_S16x9216x512_S16x32x512_1_1_2_2_0_0_wf

class Facts : Prop extends Facts₀ where

variable [Facts]
-- ==== Proof.KernelPieces.lean ====
/-
  What one grid step leaves in the output block's buffer and in the carried column of weight sums, as values.

  A step at the first pixel tile of an image (case A) clears both accumulators and then adds the tile's contribution;
  a step at the second, last tile (case B) adds its contribution to what the step before left and then subtracts the
  accumulated weight sums times the codewords.  Each buffer is stored whole, so what a step leaves in it is the value
  of its last store; a load that follows a whole store reads that store's value.
-/
import proofs.«173758_j34514357191359_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile: the output block ends at the cleared block plus the tile's weighted pixel sums. -/
theorem out_A (c : Dev nD) (i : grid0.Coords) (a2 : Memref sig .tc .vmem S1x512x4608 .f32) (h2 : a2.IsWhole) (a3 : Memref sig .tc .vmem S32x512 .f32) (h3 : a3.IsWhole) (a4 : Memref sig .tc .vmem S32x512 .bf16) (h4 : a4.IsWhole) (a5 : Memref sig .tc .vmem S32x1 .f32) (h5 : a5.IsWhole) (a6 : Memref sig .tc .vmem S32x1 .f32) (h6 : a6.IsWhole) (a7 : Memref sig .tc .vmem S1x32x512 .f32) (h7 : a7.IsWhole) (a8 : Memref sig .tc .vmem S32x1 .f32) (h8 : a8.IsWhole) (hc0 : cond0_0 i) (hc1 : ¬cond0_1 i)
    (x0 : Vec F S1x512x4608 .f32) (x1 : Vec F S32x512 .f32) (x2 : Vec F S32x512 .bf16) (x3 : Vec F S32x1 .f32) (x4 : Vec F S32x1 .f32) :
    out0_A_5 c i a2 h2 a3 h3 a4 h4 a5 h5 a6 h6 a7 h7 a8 h8 hc0 hc1 x0 x1 x2 x3 x4 = k0_pay1 (k0_pay9 x0 x2 x3 x4) (k0_pay4 (F := F)) := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  dsimp only
  sl_unfold_words
  rw [View.canon_cons_unit_zero (S := S1x32x512) hz3, View.readCov_unit_zero (S := S1x32x512) _ hz3]
  simp only [View.readAt_eq_ld, h2.read_unread, h3.read_unread, h4.read_unread, h5.read_unread, h6.read_unread, h7.read_unread, h8.read_unread, View.ld_unit_zero (S := S1x512x4608) hz3, View.ld_unit_zero (S := S32x512) hz2, View.ld_unit_zero (S := S32x1) hz2, View.ld_unit_zero (S := S1x32x512) hz3]

/-- First tile: the carried column ends at the cleared column plus the tile's weight sums. -/
theorem sout_A (c : Dev nD) (i : grid0.Coords) (a2 : Memref sig .tc .vmem S1x512x4608 .f32) (h2 : a2.IsWhole) (a3 : Memref sig .tc .vmem S32x512 .f32) (h3 : a3.IsWhole) (a4 : Memref sig .tc .vmem S32x512 .bf16) (h4 : a4.IsWhole) (a5 : Memref sig .tc .vmem S32x1 .f32) (h5 : a5.IsWhole) (a6 : Memref sig .tc .vmem S32x1 .f32) (h6 : a6.IsWhole) (a7 : Memref sig .tc .vmem S1x32x512 .f32) (h7 : a7.IsWhole) (a8 : Memref sig .tc .vmem S32x1 .f32) (h8 : a8.IsWhole) (hc0 : cond0_0 i) (hc1 : ¬cond0_1 i)
    (x0 : Vec F S1x512x4608 .f32) (x1 : Vec F S32x512 .f32) (x2 : Vec F S32x512 .bf16) (x3 : Vec F S32x1 .f32) (x4 : Vec F S32x1 .f32) :
    sout0_A_0 c i a2 h2 a3 h3 a4 h4 a5 h5 a6 h6 a7 h7 a8 h8 hc0 hc1 x0 x1 x2 x3 x4 = k0_pay2 (k0_pay8 x0 x2 x3 x4) (k0_pay5 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S32x1) hz2, View.readCov_unit_zero (S := S32x1) _ hz2]
  simp only [View.readAt_eq_ld, h2.read_unread, h3.read_unread, h4.read_unread, h5.read_unread, h6.read_unread, h7.read_unread, h8.read_unread, View.ld_unit_zero (S := S1x512x4608) hz3, View.ld_unit_zero (S := S32x512) hz2, View.ld_unit_zero (S := S32x1) hz2, View.ld_unit_zero (S := S1x32x512) hz3]

/-- Last tile: over the block `xo` and the column `xs` the step before left, the output block ends at
    `(xo + tile's weighted pixel sums) − (xs + tile's weight sums) · codewords`. -/
theorem out_B (c : Dev nD) (i : grid0.Coords) (a2 : Memref sig .tc .vmem S1x512x4608 .f32) (h2 : a2.IsWhole) (a3 : Memref sig .tc .vmem S32x512 .f32) (h3 : a3.IsWhole) (a4 : Memref sig .tc .vmem S32x512 .bf16) (h4 : a4.IsWhole) (a5 : Memref sig .tc .vmem S32x1 .f32) (h5 : a5.IsWhole) (a6 : Memref sig .tc .vmem S32x1 .f32) (h6 : a6.IsWhole) (a7 : Memref sig .tc .vmem S1x32x512 .f32) (h7 : a7.IsWhole) (a8 : Memref sig .tc .vmem S32x1 .f32) (h8 : a8.IsWhole) (hc0 : ¬cond0_0 i) (hc1 : cond0_1 i)
    (x0 : Vec F S1x512x4608 .f32) (x1 : Vec F S32x512 .f32) (x2 : Vec F S32x512 .bf16) (x3 : Vec F S32x1 .f32) (x4 : Vec F S32x1 .f32) (xo : Vec F S1x32x512 .f32) (xs : Vec F S32x1 .f32) :
    out0_B_5 c i a2 h2 a3 h3 a4 h4 a5 h5 a6 h6 a7 h7 a8 h8 hc0 hc1 x0 x1 x2 x3 x4 xo xs = k0_pay3 x1 (k0_pay1 (k0_pay9 x0 x2 x3 x4) xo) (k0_pay2 (k0_pay8 x0 x2 x3 x4) xs) := by
  unfold out0_B_5
  rw [View.read_writes_eq_canon _ _ _ (cover0_B_5 c i a2 h2 a3 h3 a4 h4 a5 h5 a6 h6 a7 h7 a8 h8 hc0 hc1 x0 x1 x2 x3 x4 xo xs)]
  unfold kernelRun0_B
  dsimp only
  sl_unfold_words
  rw [View.canon_cons_unit_zero (S := S1x32x512) hz3, View.readCov_unit_zero (S := S1x32x512) _ hz3, View.readCov_unit_zero (S := S32x1) _ hz2]
  simp only [View.readAt_eq_ld, h2.read_unread, h3.read_unread, h4.read_unread, h5.read_unread, h6.read_unread, h7.read_unread, h8.read_unread, View.ld_unit_zero (S := S1x512x4608) hz3, View.ld_unit_zero (S := S32x512) hz2, View.ld_unit_zero (S := S32x1) hz2, View.ld_unit_zero (S := S1x32x512) hz3]

end Cert.KernelIdeal.Pieces
end
-- ==== Proof.SoftAssign.lean ====
/-
  Soft assignment of pixels to codewords and the weighted residual aggregate, over the extended reals.

  For a pixel with channel vector `col`, codewords `cw k`, scales `sc k` and squared codeword norms `c2 k`, the score
  of codeword `k` is `sc k · (‖col‖² − 2·⟨cw k, col⟩ + c2 k)`, the scaled squared distance in its expanded form.  The
  weight of `k` is the softmax of the scores: `exp (score k − max score) / ∑ₖ′ exp (score k′ − max score)`.  The
  aggregate of an image with pixels `X n` is `enc k c = ∑ₙ weight(X n) k · X n c − (∑ₙ weight(X n) k) · cw k c`.

  The one law used between the two programs: a sum over 9216 pixels is the sum over the first 4608 plus the sum over
  the last 4608 (addition of extended reals is associative and commutative; no finiteness is needed), so the aggregate
  is the same whether the pixel sums are taken at once or tile by tile.
-/
import Idealize.ShloMosaic.PureOps.Ideal
import Mathlib.Algebra.BigOperators.Fin
import Idealize.ShloMosaic.Lib.ValueIdx

noncomputable section

open scoped BigOperators

namespace Cert.SoftAssign

open Idealize.ShloMosaic Idealize.ShloMosaic.ValueIdx

/-- The literal 2 of the expanded squared distance, as both programs spell it. -/
abbrev two : EReal := Ideal.ofBits .f32 0x40000000#32

variable {C K : Type} [Fintype C] [Fintype K]

/-- The score of codeword `k` for a pixel: the scaled squared distance, expanded. `two` is the literal 2. -/
def score (two : EReal) (cw : K → C → EReal) (sc c2 : K → EReal) (col : C → EReal) (k : K) : EReal :=
  sc k * ((∑ c, col c * col c) - two * (∑ c, cw k c * col c) + c2 k)

/-- The assignment weight of codeword `k` for a pixel: the softmax of the scores over the codewords. -/
def weight (two : EReal) (cw : K → C → EReal) (sc c2 : K → EReal) (col : C → EReal) (k : K) : EReal :=
  Ideal.div (Ideal.exp (score two cw sc c2 col k - Finset.univ.sup (score two cw sc c2 col)))
    (∑ k', Ideal.exp (score two cw sc c2 col k' - Finset.univ.sup (score two cw sc c2 col)))

/-- The aggregate of one image: weighted pixel sums minus the weight sums times the codewords. -/
def enc {N : Type} [Fintype N] (two : EReal) (cw : K → C → EReal) (sc c2 : K → EReal) (X : N → C → EReal) (k : K) (c : C) : EReal :=
  (∑ n, weight two cw sc c2 (X n) k * X n c) - (∑ n, weight two cw sc c2 (X n) k) * cw k c

/-- Pixel `j` of the first tile, and of the second tile, among the 9216 pixels of an image. -/
def lo (j : Fin 4608) : Fin 9216 := ⟨j.val, by have := j.isLt; omega⟩
def hi (j : Fin 4608) : Fin 9216 := ⟨4608 + j.val, by have := j.isLt; omega⟩

/-- A sum over the 9216 pixels is the sum over the first tile plus the sum over the second. -/
theorem sum_two_tiles {M : Type} [AddCommMonoid M] (f : Fin 9216 → M) :
    ∑ n, f n = ∑ j, f (lo j) + ∑ j, f (hi j) := by
  have e : ∑ n : Fin 9216, f n = ∑ n : Fin (4608 + 4608), f (Fin.cast (by norm_num) n) :=
    (Fintype.sum_equiv (finCongr (by norm_num)) _ _ (fun _ => rfl)).symm
  rw [e, Fin.sum_univ_add]
  rfl

/-- The aggregate taken tile by tile: both pixel sums split at pixel 4608. -/
theorem enc_two_tiles (two : EReal) (cw : K → C → EReal) (sc c2 : K → EReal) (X : Fin 9216 → C → EReal) (k : K) (c : C) :
    enc two cw sc c2 X k c
      = (∑ j, weight two cw sc c2 (X (lo j)) k * X (lo j) c + ∑ j, weight two cw sc c2 (X (hi j)) k * X (hi j) c)
        - (∑ j, weight two cw sc c2 (X (lo j)) k + ∑ j, weight two cw sc c2 (X (hi j)) k) * cw k c := by
  unfold enc
  rw [sum_two_tiles, sum_two_tiles]

/-- THE RESULT as one function of the arrays: entry (b, k, c) is the aggregate of image `b`, whose pixel `n` has
    channel vector `X[b, ·, n]`; `c2` is the array of squared codeword norms both programs compute on the host. -/
def result (X : (⟨3, ![16, 512, 9216]⟩ : Shape).Idx → EReal) (cw : (⟨2, ![32, 512]⟩ : Shape).Idx → EReal)
    (sc c2 : (⟨1, ![32]⟩ : Shape).Idx → EReal) : (⟨3, ![16, 32, 512]⟩ : Shape).Idx → EReal :=
  fun i => enc two (fun (k : Fin 32) (c : Fin 512) => cw (ix2 k c)) (fun k => sc (ix1 k)) (fun k => c2 (ix1 k))
    (fun (n : Fin 9216) (ch : Fin 512) => X (ix3 (i 0) ch n)) (i 1) (i 2)

theorem result_apply (X : (⟨3, ![16, 512, 9216]⟩ : Shape).Idx → EReal) (cw : (⟨2, ![32, 512]⟩ : Shape).Idx → EReal)
    (sc c2 : (⟨1, ![32]⟩ : Shape).Idx → EReal) (b : Fin 16) (k : Fin 32) (c : Fin 512) :
    result X cw sc c2 (ix3 b k c)
      = enc two (fun (k : Fin 32) (c : Fin 512) => cw (ix2 k c)) (fun k => sc (ix1 k)) (fun k => c2 (ix1 k))
          (fun (n : Fin 9216) (ch : Fin 512) => X (ix3 b ch n)) k c := rfl

end Cert.SoftAssign

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«173758_j34514357191359_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«173758_j34514357191359_2_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«173758_j34514357191359_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelTile.lean ====
/-
  The kernel body's arithmetic on one pixel tile, read entry by entry over the extended reals.

  The body holds a tile of 4608 pixels as a 512 × 4608 array of channels by pixels.  For each pixel (a column) it forms
  the scores of the 32 codewords, takes their softmax down the column, and then contracts the weights with the tile over
  the pixels.  Read at an entry: the weight array at (k, j) is the assignment weight of codeword k for pixel j; the
  product at (k, c) is the sum over the tile's pixels of weight times channel c; the accumulating stores add these to
  what was there; the closing store subtracts the accumulated weight sums times the codewords.
-/
import proofs.«173758_j34514357191359_2_alg».proof.Proof.Gen.KernelIdeal.Skeleton
import proofs.«173758_j34514357191359_2_alg».proof.Proof.SoftAssign
import proofs.«173758_j34514357191359_2_alg».proof.Proof.LibLaneCols
import proofs.«173758_j34514357191359_2_alg».proof.Proof.LibLaneRows
import proofs.«173758_j34514357191359_2_alg».proof.Proof.LibColumns
import proofs.«173758_j34514357191359_2_alg».proof.Proof.LibDotRows
import proofs.«173758_j34514357191359_2_alg».proof.Proof.LibDotCols
import Idealize.ShloMosaic.Lib.ValueLayout
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.SoftAssign

theorem exp_apply {s : Shape} {φ : FTy} (a : FVec Ideal s φ) (i : s.Idx) : exp a i = Ideal.exp (a i) := rfl

/-! ## The stages of the weight computation, as the body composes them -/

/-- The squared norms of the tile's pixels, as a row. -/
def colNorms (X : FVec Ideal S512x4608 .f32) : FVec Ideal S1x4608 .f32 :=
  shapeCast S1x4608 (multiReduction .add [0] S4608 (mulf X X) 0x00000000#32 reduces_S512x4608_S4608 (.inl rfl) rfl) shapeCasts_S4608_S1x4608

/-- The scores of every codeword for every pixel of the tile. -/
def scores (X : FVec Ideal S512x4608 .f32) (W : FVec Ideal S32x512 .bf16) (s c2 : FVec Ideal S32x1 .f32) : FVec Ideal S32x4608 .f32 :=
  mulf (broadcastTo S32x4608 s broadcasts_S32x1_S32x4608)
    (addf (subf (broadcastTo S32x4608 (colNorms X) broadcasts_S1x4608_S32x4608)
        (mulf (broadcast S32x4608 (Scalar.ofBits .f32 0x40000000#32))
          (matmul dot_S32x512_S512x4608_S32x4608_1_0_0_1_n_n none W (truncf .bf16 X bitsLt_bf16_f32) (constant S32x4608 .f32 0x00000000#32))))
      (broadcastTo S32x4608 c2 broadcasts_S32x1_S32x4608))

/-- The largest entry of each column, repeated down the column. -/
def colMax (S : FVec Ideal S32x4608 .f32) : FVec Ideal S32x4608 .f32 :=
  broadcastTo S32x4608 (shapeCast S1x4608 (multiReduction .maximumf [0] S4608 S 0xFF800000#32 reduces_S32x4608_S4608 (.inl rfl) rfl) shapeCasts_S4608_S1x4608) broadcasts_S1x4608_S32x4608

/-- The sum of each column, repeated down the column. -/
def colSum (E : FVec Ideal S32x4608 .f32) : FVec Ideal S32x4608 .f32 :=
  broadcastTo S32x4608 (shapeCast S1x4608 (multiReduction .add [0] S4608 E 0x00000000#32 reduces_S32x4608_S4608 (.inl rfl) rfl) shapeCasts_S4608_S1x4608) broadcasts_S1x4608_S32x4608

/-- The softmax down each column. -/
def softmaxCols (S : FVec Ideal S32x4608 .f32) : FVec Ideal S32x4608 .f32 :=
  divf (exp (subf S (colMax S))) (colSum (exp (subf S (colMax S))))

theorem colNorms_apply (X : FVec Ideal S512x4608 .f32) (u : Fin 1) (j : Fin 4608) :
    colNorms X (ix2 u j) = ∑ c : Fin 512, X (ix2 c j) * X (ix2 c j) := by
  unfold colNorms
  rw [shapeCast_a_1a_apply]
  exact LaneCols.multiReduction_add_cols (mulf X X) _ _ _ _ j

theorem scores_apply (X : FVec Ideal S512x4608 .f32) (W : FVec Ideal S32x512 .bf16) (s c2 : FVec Ideal S32x1 .f32)
    (k : Fin 32) (j : Fin 4608) :
    scores X W s c2 (ix2 k j)
      = score two (fun k c => W (ix2 k c)) (fun k => s (ix2 k (0 : Fin 1))) (fun k => c2 (ix2 k (0 : Fin 1))) (fun c => X (ix2 c j)) k := by
  unfold scores score
  simp only [mulf_apply, addf_apply, subf_apply, broadcast_apply, matmul]
  rw [broadcastTo_a1_ab_apply, broadcastTo_a1_ab_apply, broadcastTo_1b_ab_apply, colNorms_apply,
    Cert.Lib.DotCols.matmul_cols_apply dot_S32x512_S512x4608_S32x4608_1_0_0_1_n_n rfl]
  rfl

theorem colMax_apply (S : FVec Ideal S32x4608 .f32) (k : Fin 32) (j : Fin 4608) :
    colMax S (ix2 k j) = (Finset.univ : Finset (Fin 32)).sup fun k' => S (ix2 k' j) := by
  unfold colMax
  rw [broadcastTo_1b_ab_apply, shapeCast_a_1a_apply]
  exact LaneCols.multiReduction_max_cols S _ _ _ j

theorem colSum_apply (E : FVec Ideal S32x4608 .f32) (k : Fin 32) (j : Fin 4608) :
    colSum E (ix2 k j) = ∑ k' : Fin 32, E (ix2 k' j) := by
  unfold colSum
  rw [broadcastTo_1b_ab_apply, shapeCast_a_1a_apply]
  exact LaneCols.multiReduction_add_cols E _ _ _ _ j

theorem softmaxCols_apply (S : FVec Ideal S32x4608 .f32) (k : Fin 32) (j : Fin 4608) :
    softmaxCols S (ix2 k j)
      = Ideal.div (Ideal.exp (S (ix2 k j) - (Finset.univ : Finset (Fin 32)).sup fun k' => S (ix2 k' j)))
          (∑ k' : Fin 32, Ideal.exp (S (ix2 k' j) - (Finset.univ : Finset (Fin 32)).sup fun k'' => S (ix2 k'' j))) := by
  unfold softmaxCols
  rw [divf_apply, colSum_apply]
  simp only [exp_apply, subf_apply, colMax_apply]

/-! ## The body's values -/

/-- The weight array is the softmax of the scores of the loaded tile. -/
theorem pay8_eq (x0 : Vec Ideal S1x512x4608 .f32) (x2 : Vec Ideal S32x512 .bf16) (x3 x4 : Vec Ideal S32x1 .f32) :
    k0_pay8 (F := Ideal) x0 x2 x3 x4
      = softmaxCols (scores (shapeCast S512x4608 x0 shapeCasts_S1x512x4608_S512x4608) (shapeCast S32x512 x2 shapeCasts_S32x512_S32x512)
          (shapeCast S32x1 x3 shapeCasts_S32x1_S32x1) (shapeCast S32x1 x4 shapeCasts_S32x1_S32x1)) := rfl

/-- The weight array at (k, j): the assignment weight of codeword `k` for the tile's pixel `j`. -/
theorem pay8_apply (x0 : Vec Ideal S1x512x4608 .f32) (x2 : Vec Ideal S32x512 .bf16) (x3 x4 : Vec Ideal S32x1 .f32)
    (k : Fin 32) (j : Fin 4608) :
    k0_pay8 (F := Ideal) x0 x2 x3 x4 (ix2 k j)
      = weight two (fun k c => x2 (ix2 k c)) (fun k => x3 (ix2 k (0 : Fin 1))) (fun k => x4 (ix2 k (0 : Fin 1)))
          (fun c => x0 (ix3 (0 : Fin 1) c j)) k := by
  rw [pay8_eq, softmaxCols_apply]
  simp only [scores_apply, shapeCast_self, shapeCast_1ab_ab_apply]
  rfl

/-- The weights contracted with the tile over its pixels, at (k, c). -/
theorem pay9_apply (x0 : Vec Ideal S1x512x4608 .f32) (x2 : Vec Ideal S32x512 .bf16) (x3 x4 : Vec Ideal S32x1 .f32)
    (k : Fin 32) (c : Fin 512) :
    k0_pay9 (F := Ideal) x0 x2 x3 x4 (ix2 k c)
      = ∑ j : Fin 4608, k0_pay8 (F := Ideal) x0 x2 x3 x4 (ix2 k j) * x0 (ix3 (0 : Fin 1) c j) := by
  unfold k0_pay9 k0_pay7 k0_pay6
  try dsimp only
  refine (Cert.Lib.DotRows.matmul_rows_apply dot_S32x4608_S512x4608_S32x512_1_1_0_0_n_n rfl none _ _ k c).trans ?_
  refine Finset.sum_congr rfl fun j _ => ?_
  rw [truncf_apply, truncf_apply, shapeCast_1ab_ab_apply]

/-- The accumulating store of the output block: what was there plus the tile's product. -/
theorem pay1_apply (v35 : FVec Ideal S32x512 .f32) (v36 : Vec Ideal S1x32x512 .f32) (u : Fin 1) (k : Fin 32) (c : Fin 512) :
    k0_pay1 (F := Ideal) v35 v36 (ix3 u k c) = v36 (ix3 (0 : Fin 1) k c) + v35 (ix2 k c) := by
  unfold k0_pay1
  try dsimp only
  rw [shapeCast_ab_1ab_apply, addf_apply, shapeCast_1ab_ab_apply]

/-- The accumulating store of the weight sums: what was there plus the tile's row sums of the weights. -/
theorem pay2_apply (v33 : FVec Ideal S32x4608 .f32) (v42 : Vec Ideal S32x1 .f32) (k : Fin 32) (u : Fin 1) :
    k0_pay2 (F := Ideal) v33 v42 (ix2 k u) = v42 (ix2 k u) + ∑ j : Fin 4608, v33 (ix2 k j) := by
  unfold k0_pay2
  try dsimp only
  rw [shapeCast_self, addf_apply, shapeCast_a_a1_apply]
  exact congrArg (v42 (ix2 k u) + ·) (LaneRows.multiReduction_add_rows v33 _ _ _ _ k)

/-- The closing store: the accumulated block minus the accumulated weight sums times the codewords. -/
theorem pay3_apply (v5 : Vec Ideal S32x512 .f32) (v52 : Vec Ideal S1x32x512 .f32) (v54 : Vec Ideal S32x1 .f32)
    (u : Fin 1) (k : Fin 32) (c : Fin 512) :
    k0_pay3 (F := Ideal) v5 v52 v54 (ix3 u k c) = v52 (ix3 (0 : Fin 1) k c) - v54 (ix2 k (0 : Fin 1)) * v5 (ix2 k c) := by
  unfold k0_pay3
  try dsimp only
  rw [shapeCast_ab_1ab_apply, subf_apply, mulf_apply, shapeCast_1ab_ab_apply, broadcastTo_a1_ab_apply]

/-- The cleared output block and the cleared column of weight sums are zero. -/
theorem pay4_apply (u : Fin 1) (k : Fin 32) (c : Fin 512) : k0_pay4 (F := Ideal) (ix3 u k c) = 0 := by
  unfold k0_pay4
  try dsimp only
  rw [shapeCast_ab_1ab_apply, broadcast_apply]
  exact Ideal.ofBits_zero_f32

theorem pay5_apply (k : Fin 32) (u : Fin 1) : k0_pay5 (F := Ideal) (ix2 k u) = 0 := by
  unfold k0_pay5
  try dsimp only
  rw [shapeCast_self, broadcast_apply]
  exact Ideal.ofBits_zero_f32

/-- THE OUTPUT BLOCK AFTER AN IMAGE'S TWO STEPS, at (k, ch).  The first step (tile `xA`) clears and accumulates, the second
    (tile `xB`) accumulates and closes: the two tiles' weighted pixel sums added, minus the two tiles' weight sums added
    times the codeword entry.  Each step reads its own copies of the small operands. -/
theorem two_steps_apply
    (xA xB : Vec Ideal S1x512x4608 .f32) (cwB : Vec Ideal S32x512 .f32) (wA wB : Vec Ideal S32x512 .bf16)
    (sA sB cA cB : Vec Ideal S32x1 .f32) (u : Fin 1) (k : Fin 32) (ch : Fin 512) :
    k0_pay3 (F := Ideal) cwB (k0_pay1 (k0_pay9 xB wB sB cB) (k0_pay1 (k0_pay9 xA wA sA cA) (k0_pay4 (F := Ideal))))
        (k0_pay2 (k0_pay8 xB wB sB cB) (k0_pay2 (k0_pay8 xA wA sA cA) (k0_pay5 (F := Ideal)))) (ix3 u k ch)
      = (∑ j : Fin 4608, weight two (fun k c => wA (ix2 k c)) (fun k => sA (ix2 k (0 : Fin 1))) (fun k => cA (ix2 k (0 : Fin 1)))
              (fun c => xA (ix3 (0 : Fin 1) c j)) k * xA (ix3 (0 : Fin 1) ch j)
          + ∑ j : Fin 4608, weight two (fun k c => wB (ix2 k c)) (fun k => sB (ix2 k (0 : Fin 1))) (fun k => cB (ix2 k (0 : Fin 1)))
              (fun c => xB (ix3 (0 : Fin 1) c j)) k * xB (ix3 (0 : Fin 1) ch j))
        - (∑ j : Fin 4608, weight two (fun k c => wA (ix2 k c)) (fun k => sA (ix2 k (0 : Fin 1))) (fun k => cA (ix2 k (0 : Fin 1)))
              (fun c => xA (ix3 (0 : Fin 1) c j)) k
          + ∑ j : Fin 4608, weight two (fun k c => wB (ix2 k c)) (fun k => sB (ix2 k (0 : Fin 1))) (fun k => cB (ix2 k (0 : Fin 1)))
              (fun c => xB (ix3 (0 : Fin 1) c j)) k) * cwB (ix2 k ch) := by
  rw [pay3_apply, pay1_apply, pay1_apply, pay4_apply, pay2_apply, pay2_apply, pay5_apply, pay9_apply, pay9_apply, zero_add, zero_add]
  simp only [pay8_apply]

end Cert.KernelIdeal.Tile
end
-- ==== Proof.KernelValue.lean ====
/-
  The kernel's result array as one function of its arguments.

  The grid has 32 steps, two per image: step 2b handles the first 4608 pixels of image b, step 2b + 1 the last 4608 and
  then writes the output block b back.  So block b of the result array is what step 2b + 1 leaves, over what step 2b left:
  the two tiles' weighted pixel sums added, minus the two tiles' weight sums added times the codewords — and a sum over all
  9216 pixels is the sum over the two tiles.  The small operands are the same arrays at every step: the codewords, the
  scales as a column, and the squared codeword norms the host computed before the call.
-/
import proofs.«173758_j34514357191359_2_alg».proof.Proof.Gen.KernelIdeal.Value
import proofs.«173758_j34514357191359_2_alg».proof.Proof.KernelPieces
import proofs.«173758_j34514357191359_2_alg».proof.Proof.KernelTile
import proofs.«173758_j34514357191359_2_alg».proof.Proof.SoftAssign
import proofs.«173758_j34514357191359_2_alg».proof.Proof.LibColumns
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Idealize.ShloMosaic.StableHlo Cert.SoftAssign

variable (m : (ℓ : Loc nD τ sig) → Buf (Elt Ideal) ℓ) (ρ : Dev nD → PrngReg)

/-! ## The arrays the host prepares before the call -/

/-- The input with its two pixel axes merged. -/
abbrev xs (c : Dev nD) : S16x512x9216.Idx → EReal :=
  shapeCast S16x512x9216 (m ((c : Thread nD τ).loc main_arg0)) shapeCasts_S16x512x96x96_S16x512x9216

/-- The squared norms of the codewords. -/
abbrev sqNorms (c : Dev nD) : S32.Idx → EReal :=
  Host.reduceAdd (F := Ideal) (mulf (m ((c : Thread nD τ).loc main_arg1)) (m ((c : Thread nD τ).loc main_arg1)))
    (constant (F := Ideal) S_ .f32 0x00000000#32) reducesTo_S32x512_S32_d1 h_S_

theorem V_v0 (c : Dev nD) : (V m c main_v0 : S16x512x9216.Idx → EReal) = xs m c := by
  dsimp only [Gen.V, Gen.hostOps0]; after_results; first | done | rfl

theorem V_v1 (c : Dev nD) : (V m c main_v1 : S32x1.Idx → EReal)
    = shapeCast S32x1 (m ((c : Thread nD τ).loc main_arg2)) shapeCasts_S32_S32x1 := by
  dsimp only [Gen.V, Gen.hostOps0]; after_results; first | done | rfl

theorem V_v4 (c : Dev nD) : (V m c main_v4 : S32x1.Idx → EReal)
    = broadcastInDim S32x1 ![0] bcast_S32_S32x1_0 (sqNorms m c) := by
  dsimp only [Gen.V, Gen.hostOps0]; after_results; first | done | rfl

theorem V_v5 (c : Dev nD) : @Eq (S32x512.Idx → EReal) (V m c main_v5)
    (truncf (F := Ideal) .bf16 (m ((c : Thread nD τ).loc main_arg1)) bitsLt_bf16_f32) := by
  dsimp only [Gen.V, Gen.hostOps0]; after_results; first | done | rfl

/-! ## Where each window's block sits -/

/-- The index maps, decided over the grid: step t reads tile t mod 2 of image t / 2, the small operands whole, and
    holds output block t / 2. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = 0 ∧ win0_5.index t (2 : Fin 3) = 0 :=
  (by decide +kernel : ∀ t : Fin grid0.N, _)

/-- The pixel tile at step t, entry (ch, j): channel ch of pixel (t mod 2)·4608 + j of image t / 2. -/
theorem blk0_apply (c : Dev nD) (t : Fin cfg0.N) (ch : Fin 512) (j : Fin 4608) (b : Fin 16) (n : Fin 9216)
    (hb : b.val = t.val / 2) (hn : n.val = (t.val % 2) * 4608 + j.val) :
    (iblk m c 0 t : Vec Ideal S1x512x4608 .f32) (ix3 (0 : Fin 1) ch j) = xs m c (ix3 b ch n) := by
  obtain ⟨e0, e1, e2, -⟩ := idx_facts t
  rw [← V_v0]
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = b.val; rw [e0, hb]; omega
  | ⟨1, _⟩ => show win0_0.index t (1 : Fin 3) * 512 + 1 * ch.val = ch.val; rw [e1]; omega
  | ⟨2, _⟩ => show win0_0.index t (2 : Fin 3) * 4608 + 1 * j.val = n.val; rw [e2, hn]; omega

/-- The codeword block is the whole array of codewords. -/
theorem blk1_apply (c : Dev nD) (t : Fin cfg0.N) (k : Fin 32) (ch : Fin 512) :
    (iblk m c 1 t : Vec Ideal S32x512 .f32) (ix2 k ch) = m ((c : Thread nD τ).loc main_arg1) (ix2 k ch) := by
  obtain ⟨-, -, -, e0, e1, -⟩ := idx_facts t
  rw [← V_main_arg1 m c]
  unfold iblk
  rw [View.read_apply]
  show V m c main_arg1 _ = V m c main_arg1 _
  refine congrArg (V m c main_arg1) (funext fun a => Fin.ext ?_)
  match a with
  | ⟨0, _⟩ => show win0_1.index t (0 : Fin 2) * 32 + 1 * k.val = k.val; rw [e0]; omega
  | ⟨1, _⟩ => show win0_1.index t (1 : Fin 2) * 512 + 1 * ch.val = ch.val; rw [e1]; omega

/-- The block of codewords in the narrower format holds the same numbers. -/
theorem blk2_apply (c : Dev nD) (t : Fin cfg0.N) (k : Fin 32) (ch : Fin 512) :
    (iblk m c 2 t : Vec Ideal S32x512 .bf16) (ix2 k ch) = m ((c : Thread nD τ).loc main_arg1) (ix2 k ch) := by
  obtain ⟨-, -, -, -, -, e0, e1, -⟩ := idx_facts t
  have hv : (V m c main_v5 : S32x512.Idx → EReal) (ix2 k ch) = m ((c : Thread nD τ).loc main_arg1) (ix2 k ch) := by
    rw [V_v5]; rfl
  rw [← hv]
  unfold iblk
  rw [View.read_apply]
  show V m c main_v5 _ = V m c main_v5 _
  refine congrArg (V m c main_v5) (funext fun a => Fin.ext ?_)
  match a with
  | ⟨0, _⟩ => show win0_2.index t (0 : Fin 2) * 32 + 1 * k.val = k.val; rw [e0]; omega
  | ⟨1, _⟩ => show win0_2.index t (1 : Fin 2) * 512 + 1 * ch.val = ch.val; rw [e1]; omega

/-- The column of scales holds the scale of each codeword. -/
theorem blk3_apply (c : Dev nD) (t : Fin cfg0.N) (k : Fin 32) :
    (iblk m c 3 t : Vec Ideal S32x1 .f32) (ix2 k (0 : Fin 1)) = m ((c : Thread nD τ).loc main_arg2) (ix1 k) := by
  obtain ⟨-, -, -, -, -, -, -, e0, e1, -⟩ := idx_facts t
  have hv : (V m c main_v1 : S32x1.Idx → EReal) (ix2 k (0 : Fin 1)) = m ((c : Thread nD τ).loc main_arg2) (ix1 k) := by
    rw [V_v1, shapeCast_a_a1_apply]
  rw [← hv]
  unfold iblk
  rw [View.read_apply]
  show V m c main_v1 _ = V m c main_v1 _
  refine congrArg (V m c main_v1) (funext fun a => Fin.ext ?_)
  match a with
  | ⟨0, _⟩ => show win0_3.index t (0 : Fin 2) * 32 + 1 * k.val = k.val; rw [e0]; omega
  | ⟨1, _⟩ => show win0_3.index t (1 : Fin 2) * 1 + 1 * 0 = 0; rw [e1]

/-- The column of squared norms holds the squared norm of each codeword. -/
theorem blk4_apply (c : Dev nD) (t : Fin cfg0.N) (k : Fin 32) :
    (iblk m c 4 t : Vec Ideal S32x1 .f32) (ix2 k (0 : Fin 1)) = sqNorms m c (ix1 k) := by
  obtain ⟨-, -, -, -, -, -, -, -, -, e0, e1, -⟩ := idx_facts t
  have hv : (V m c main_v4 : S32x1.Idx → EReal) (ix2 k (0 : Fin 1)) = sqNorms m c (ix1 k) := by
    rw [V_v4]
    exact broadcastInDim_apply _ bcast_S32_S32x1_0 (sqNorms m c) (ix2 k (0 : Fin 1)) (ix1 k) (fun a => match a with
      | ⟨0, _⟩ => by show k.val = if (32 : Nat) = 1 then 0 else k.val; rw [if_neg (by decide)])
  rw [← hv]
  unfold iblk
  rw [View.read_apply]
  show V m c main_v4 _ = V m c main_v4 _
  refine congrArg (V m c main_v4) (funext fun a => Fin.ext ?_)
  match a with
  | ⟨0, _⟩ => show win0_4.index t (0 : Fin 2) * 32 + 1 * k.val = k.val; rw [e0]; omega
  | ⟨1, _⟩ => show win0_4.index t (1 : Fin 2) * 1 + 1 * 0 = 0; rw [e1]

/-! ## The result array -/

/-- The result: the aggregate of each image over the merged input, the codewords, the scales and the host's squared norms. -/
abbrev res (c : Dev nD) : Buf (Elt Ideal) ((c : Thread nD τ).loc main_v6) :=
  result (xs m c) (m ((c : Thread nD τ).loc main_arg1)) (m ((c : Thread nD τ).loc main_arg2)) (sqNorms m c)

/-- What a writing step (an odd step t, the second of image t / 2) writes back is block t / 2 of the result. -/
theorem flushed_eq (c : Dev nD) (t : Fin cfg0.N) (hf : (cfg0.win 5).flush t = true) :
    (dats m 0 c).flushed 5 t = ((cfg0.win 5).blk t).view.read (Elt Ideal) (res m c) := by
  have hN : cfg0.N = 32 := N_0
  have htl : t.val < 32 := lt_of_lt_of_eq t.isLt hN
  have h1 : t.val % 2 = 1 := (flush0_5 t).mp hf
  have h0 : ¬ t.val % 2 = 0 := by omega
  have hlt : t.val - 1 < cfg0.N := Nat.lt_of_le_of_lt (Nat.sub_le _ _) t.isLt
  have hA0 : (⟨t.val - 1, hlt⟩ : Fin cfg0.N).val % 2 = 0 := by show (t.val - 1) % 2 = 0; omega
  have hA1 : ¬ (⟨t.val - 1, hlt⟩ : Fin cfg0.N).val % 2 = 1 := by show ¬ (t.val - 1) % 2 = 1; omega
  rw [Value.flushed5_B m c t h0 h1]
  rw [show outsAt0 m c (t.val - 1) (Nat.lt_of_le_of_lt (Nat.sub_le _ _) t.isLt) = _ from outsAt0_A m c ⟨t.val - 1, hlt⟩ hA0 hA1]
  dsimp only
  rw [Pieces.out_B, Pieces.out_A, Pieces.sout_A]
  funext y
  obtain ⟨u, k, ch, rfl⟩ : ∃ (u : Fin 1) (k : Fin 32) (ch : Fin 512), y = ix3 u k ch := ⟨y 0, y 1, y 2, eq_ix3 y⟩
  refine (Tile.two_steps_apply (iblk m c 0 ⟨t.val - 1, hlt⟩) (iblk m c 0 t) (iblk m c 1 t) (iblk m c 2 ⟨t.val - 1, hlt⟩) (iblk m c 2 t)
    (iblk m c 3 ⟨t.val - 1, hlt⟩) (iblk m c 3 t) (iblk m c 4 ⟨t.val - 1, hlt⟩) (iblk m c 4 t) u k ch).trans ?_
  obtain ⟨-, -, -, -, -, -, -, -, -, -, -, e0, e1, e2⟩ := idx_facts t
  have hb : t.val / 2 < 16 := by omega
  have hemb : ((cfg0.win 5).blk t).view.emb (ix3 u k ch) = ix3 (⟨t.val / 2, hb⟩ : Fin 16) k ch := by
    funext a; apply Fin.ext
    have hu : u.val = 0 := by omega
    match a with
    | ⟨0, _⟩ => show win0_5.index t (0 : Fin 3) * 1 + 1 * u.val = t.val / 2; rw [e0, hu]; omega
    | ⟨1, _⟩ => show win0_5.index t (1 : Fin 3) * 32 + 1 * k.val = k.val; rw [e1]; omega
    | ⟨2, _⟩ => show win0_5.index t (2 : Fin 3) * 512 + 1 * ch.val = ch.val; rw [e2]; omega
  rw [View.read_apply, hemb]
  show _ = result (xs m c) (m ((c : Thread nD τ).loc main_arg1)) (m ((c : Thread nD τ).loc main_arg2)) (sqNorms m c)
    (ix3 (⟨t.val / 2, hb⟩ : Fin 16) k ch)
  rw [result_apply, enc_two_tiles]
  have hA : ∀ (c' : Fin 512) (j : Fin 4608),
      (iblk m c 0 ⟨t.val - 1, hlt⟩ : Vec Ideal S1x512x4608 .f32) (ix3 (0 : Fin 1) c' j) = xs m c (ix3 (⟨t.val / 2, hb⟩ : Fin 16) c' (lo j)) :=
    fun c' j => blk0_apply m c ⟨t.val - 1, hlt⟩ c' j ⟨t.val / 2, hb⟩ (lo j) (by show t.val / 2 = (t.val - 1) / 2; omega)
      (by show j.val = ((t.val - 1) % 2) * 4608 + j.val; omega)
  have hB : ∀ (c' : Fin 512) (j : Fin 4608),
      (iblk m c 0 t : Vec Ideal S1x512x4608 .f32) (ix3 (0 : Fin 1) c' j) = xs m c (ix3 (⟨t.val / 2, hb⟩ : Fin 16) c' (hi j)) :=
    fun c' j => blk0_apply m c t c' j ⟨t.val / 2, hb⟩ (hi j) rfl (by show 4608 + j.val = (t.val % 2) * 4608 + j.val; omega)
  simp only [hA, hB, blk1_apply, blk2_apply, blk3_apply, blk4_apply]

/-- An index of the result array is in step t's block iff each coordinate is in the block's range on its axis. -/
theorem mem_blk5 (t : Fin cfg0.N) (i : S16x32x512.Idx) :
    i ∈ ((cfg0.win 5).blk t).view.set ↔ ∀ a : Fin 3, win0_5.index t a * S1x32x512.size a ≤ (i a).val ∧ (i a).val < win0_5.index t a * S1x32x512.size a + S1x32x512.size a := by
  show i ∈ ((View.whole main_v6).slice (win0_5.rect t)).set ↔ _
  rw [View.set_slice_whole, Rect.mem_set_unit]
  exact Iff.rfl

/-- THE RESULT ARRAY after the run: entry (b, ·, ·) lies in the block that step 2b + 1 writes back. -/
theorem final (c : Dev nD) : (dats m 0 c).arrAt 5 cfg0.N = res m c :=
  (dats m 0 c).arrAt_eq_of_cover 5 (res m c) (fun t hf => flushed_eq m c t hf) fun i => by
    have hN : cfg0.N = 32 := N_0
    have hi0 : (i 0).val < 16 := (i 0).isLt
    have hi1 : (i 1).val < 32 := (i 1).isLt
    have hi2 : (i 2).val < 512 := (i 2).isLt
    have hlt : 2 * (i 0).val + 1 < cfg0.N := by omega
    refine ⟨⟨2 * (i 0).val + 1, hlt⟩, (flush0_5 _).mpr (by show (2 * (i 0).val + 1) % 2 = 1; omega), ?_⟩
    rw [mem_blk5]
    obtain ⟨-, -, -, -, -, -, -, -, -, -, -, e0, e1, e2⟩ := idx_facts ⟨2 * (i 0).val + 1, hlt⟩
    have e0' : win0_5.index ⟨2 * (i 0).val + 1, hlt⟩ (0 : Fin 3) = (2 * (i 0).val + 1) / 2 := e0
    intro a
    match a with
    | ⟨0, _⟩ =>
      show win0_5.index ⟨2 * (i 0).val + 1, hlt⟩ (0 : Fin 3) * 1 ≤ (i 0).val ∧ (i 0).val < win0_5.index ⟨2 * (i 0).val + 1, hlt⟩ (0 : Fin 3) * 1 + 1
      rw [e0']; omega
    | ⟨1, _⟩ =>
      show win0_5.index ⟨2 * (i 0).val + 1, hlt⟩ (1 : Fin 3) * 32 ≤ (i 1).val ∧ (i 1).val < win0_5.index ⟨2 * (i 0).val + 1, hlt⟩ (1 : Fin 3) * 32 + 32
      rw [e1]; omega
    | ⟨2, _⟩ =>
      show win0_5.index ⟨2 * (i 0).val + 1, hlt⟩ (2 : Fin 3) * 512 ≤ (i 2).val ∧ (i 2).val < win0_5.index ⟨2 * (i 0).val + 1, hlt⟩ (2 : Fin 3) * 512 + 512
      rw [e2]; omega

/-- The run, read: the result array at the aggregate of each image, the arguments unchanged. -/
theorem run : θ_run defs (onTc (τ := τ) (main (F := Ideal))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole
end
-- ==== Proof.RefValue.lean ====
/-
  The reference program's result, read entry by entry: it is the aggregate of each image.

  The reference lays the pixels out as rows (pixel, channel) — the transpose of the kernel's tiles — and takes every sum
  over all 9216 pixels at once.  At pixel (b, n) its scores are those of the channel vector `X[b, ·, n]` (its inner product
  with a codeword is the same sum with the factors in the other order), its softmax over the 32 codewords is the
  assignment weight (the extra maximum with −∞ changes nothing; sums started from 0 are the plain sums), and its result
  is the weighted pixel sum minus the weight sum times the codeword entry.
-/
import proofs.«173758_j34514357191359_2_alg».proof.Proof.Gen.ReferenceIdeal.Read
import proofs.«173758_j34514357191359_2_alg».proof.Proof.SoftAssign
import proofs.«173758_j34514357191359_2_alg».proof.Proof.LibHostMax
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.SoftAssign

variable (x0 : (⟨S16x512x96x96, .f32⟩ : BufTy).Contents (Elt Ideal)) (x1 : (⟨S32x512, .f32⟩ : BufTy).Contents (Elt Ideal))
  (x2 : (⟨S32, .f32⟩ : BufTy).Contents (Elt Ideal))

/-- The transposed layout at (b, n, ch) is the channels-first layout at (b, ch, n). -/
theorem v1_at (b : Fin 16) (n : Fin 9216) (ch : Fin 512) :
    val_main_v1 (F := Ideal) x0 (ix3 b n ch) = val_main_v0 (F := Ideal) x0 (ix3 b ch n) := by
  rw [val_main_v1_apply]
  exact congrArg _ (by funext a; fin_cases a <;> rfl)

/-- The reference's score array at (b, n, k): the score of codeword `k` for pixel `n` of image `b`. -/
theorem score_at (b : Fin 16) (n : Fin 9216) (k : Fin 32) :
    val_main_v17 (F := Ideal) x0 x1 x2 (ix3 b n k)
      = score two (fun (k : Fin 32) (c : Fin 512) => x1 (ix2 k c)) (fun k => x2 (ix1 k)) (fun k => val_main_v6 (F := Ideal) x1 (ix1 k))
          (fun ch : Fin 512 => val_main_v0 (F := Ideal) x0 (ix3 b ch n)) k := by
  have e16 : idx_main_v15 (idx_main_v16 (ix3 b n k)) = ix1 k := by funext a; fin_cases a <;> rfl
  have e13 : idx_main_v12 (idx_main_v13 (ix3 b n k)) = ix1 k := by funext a; fin_cases a <;> rfl
  have e10 : ∀ ch : Fin 512, idx_main_v3 (idx_main_v4 (idx_main_v10 (ix3 b n k))) ch = ix3 b n ch :=
    fun ch => by funext a; fin_cases a <;> rfl
  have e7l : ∀ ch : Fin 512, lidx_main_v7 (ix3 b n k) ch = ix3 b n ch := fun ch => by funext a; fin_cases a <;> rfl
  have e7r : ∀ ch : Fin 512, ridx_main_v7 (ix3 b n k) ch = ix2 k ch := fun ch => by funext a; fin_cases a <;> rfl
  simp only [val_main_v17_apply, val_main_v16_apply, val_main_v15_apply, val_main_v14_apply, val_main_v11_apply,
    val_main_v10_apply, val_main_v4_apply, val_main_v3_apply, val_main_v9_apply, val_main_v8_apply, val_main_v7_apply,
    val_main_v13_apply, val_main_v12_apply, val_main_v2_apply, val_main_cst_apply, val_main_cst_1_apply,
    e16, e13, e10, e7l, e7r, v1_at]
  unfold score
  simp only [Ideal.mulf_def, Ideal.addf_def, Ideal.subf_def, Ideal.ofBits_def, Ideal.ofBits_zero_f32, zero_add]
  have hc : (∑ ch : Fin 512, val_main_v0 (F := Ideal) x0 (ix3 b ch n) * x1 (ix2 k ch))
      = ∑ c : Fin 512, x1 (ix2 k c) * val_main_v0 (F := Ideal) x0 (ix3 b c n) :=
    Finset.sum_congr rfl fun c _ => mul_comm _ _
  rw [hc]

/-- The reference's column maximum at (b, n, ·): the largest score of pixel `n` of image `b` (a maximum with −∞ changes nothing). -/
theorem max_at (b : Fin 16) (n : Fin 9216) (k : Fin 32) :
    val_main_v22 (F := Ideal) x0 x1 x2 (ix3 b n k)
      = (Finset.univ : Finset (Fin 32)).sup fun k' => val_main_v17 (F := Ideal) x0 x1 x2 (ix3 b n k') := by
  have e22 : idx_main_v21 (idx_main_v22 (ix3 b n k)) = ix2 b n := by funext a; fin_cases a <;> rfl
  rw [val_main_v22_apply, val_main_v21_apply, e22, val_main_v20_apply, val_main_v19_apply, val_main_cst_3_apply]
  unfold val_main_v18
  rw [HostMax.reduce_groups (val_main_v17 (F := Ideal) x0 x1 x2) (val_main_cst_2 (F := Ideal))
    (fun _ => HostMax.ofBits_neg_inf) reducesTo_S16x9216x32_S16x9216_d2 (by decide) h_S_ b n]
  show max (Ideal.ofBits .f32 0xFF800000#32) _ = _
  rw [HostMax.ofBits_neg_inf, max_bot_left]

/-- The reference's softmax denominator at (b, n, ·): the sum over the codewords of the exponentials (a sum started from 0). -/
theorem den_at (b : Fin 16) (n : Fin 9216) (k : Fin 32) :
    val_main_v27 (F := Ideal) x0 x1 x2 (ix3 b n k) = ∑ k' : Fin 32, val_main_v24 (F := Ideal) x0 x1 x2 (ix3 b n k') := by
  have e27 : idx_main_v26 (idx_main_v27 (ix3 b n k)) = ix2 b n := by funext a; fin_cases a <;> rfl
  have e25 : ∀ k' : Fin 32, idx_main_v25 (ix2 b n) k' = ix3 b n k' := fun k' => by funext a; fin_cases a <;> rfl
  rw [val_main_v27_apply, val_main_v26_apply, e27, val_main_v25_apply, val_main_cst_4_apply]
  simp only [e25]
  show Ideal.ofBits .f32 0x00000000#32 + _ = _
  rw [Ideal.ofBits_zero_f32, zero_add]

/-- The reference's softmax at (b, n, k): the assignment weight of codeword `k` for pixel `n` of image `b`. -/
theorem weight_at (b : Fin 16) (n : Fin 9216) (k : Fin 32) :
    val_main_v28 (F := Ideal) x0 x1 x2 (ix3 b n k)
      = weight two (fun (k : Fin 32) (c : Fin 512) => x1 (ix2 k c)) (fun k => x2 (ix1 k)) (fun k => val_main_v6 (F := Ideal) x1 (ix1 k))
          (fun ch : Fin 512 => val_main_v0 (F := Ideal) x0 (ix3 b ch n)) k := by
  rw [val_main_v28_apply, den_at]
  simp only [val_main_v24_apply, val_main_v23_apply, max_at, score_at]
  rfl

/-- THE REFERENCE'S RESULT is the aggregate of each image, over the reshaped input and the host's squared codeword norms. -/
theorem ref_result :
    val_main_v36 (F := Ideal) x0 x1 x2 = result (val_main_v0 (F := Ideal) x0) x1 x2 (val_main_v6 (F := Ideal) x1) := by
  funext i
  obtain ⟨b, k, c, rfl⟩ : ∃ (b : Fin 16) (k : Fin 32) (c : Fin 512), i = ix3 b k c := ⟨i 0, i 1, i 2, eq_ix3 i⟩
  have e29l : ∀ n : Fin 9216, lidx_main_v29 (ix3 b k c) n = ix3 b n k := fun n => by funext a; fin_cases a <;> rfl
  have e29r : ∀ n : Fin 9216, ridx_main_v29 (ix3 b k c) n = ix3 b n c := fun n => by funext a; fin_cases a <;> rfl
  have e30 : ∀ n : Fin 9216, idx_main_v30 (idx_main_v31 (idx_main_v33 (ix3 b k c))) n = ix3 b n k :=
    fun n => by funext a; fin_cases a <;> rfl
  have e34 : idx_main_v32 (idx_main_v34 (ix3 b k c)) = ix2 k c := by funext a; fin_cases a <;> rfl
  rw [result_apply]
  unfold enc
  simp only [val_main_v36_apply, val_main_v29_apply, val_main_v35_apply, val_main_v33_apply, val_main_v31_apply,
    val_main_v30_apply, val_main_v34_apply, val_main_v32_apply, val_main_cst_5_apply, e29l, e29r, e30, e34,
    weight_at, v1_at, Ideal.subf_def, Ideal.mulf_def, Ideal.ofBits_def, Ideal.ofBits_zero_f32, zero_add]

end Cert.ReferenceIdeal.RefValue
end
-- ==== Proof.lean ====
/-
  The certificate of the soft vector-quantisation kernel against its reference, over the extended reals.

  Both programs compute, for each of 16 images, the assignment weights of its 9216 pixels to 32 codewords (a softmax of
  scaled squared distances in expanded form) and the aggregate `∑ₙ wₙₖ · xₙ − (∑ₙ wₙₖ) · cₖ`.  The kernel walks each
  image in two tiles of 4608 pixels, accumulating the two sums in its output block and in a carried column, and closes
  on the second tile; the reference takes both sums over all pixels at once.  The two results are one function of the
  arguments: a sum over all pixels is the sum over the two tiles (associativity and commutativity of addition, valid at
  the infinities too), the inner products differ only in the order of their factors, sums started from zero are the plain
  sums, and a maximum with −∞ changes nothing.  No finiteness of the inputs is needed.

  The three frames: the two kernel programs by their generated frame runs; the reference by its run with the result dropped.
  The idealisation rewrote nothing, so the preservation claim is trivial.
-/
import proofs.«173758_j34514357191359_2_alg».proof.Defs
import proofs.«173758_j34514357191359_2_alg».proof.Proof.Gen.Kernel
import proofs.«173758_j34514357191359_2_alg».proof.Proof.Gen.Kernel.Frame
import proofs.«173758_j34514357191359_2_alg».proof.Proof.Gen.KernelIdeal
import proofs.«173758_j34514357191359_2_alg».proof.Proof.Gen.KernelIdeal.Frame
import proofs.«173758_j34514357191359_2_alg».proof.Proof.Gen.KernelIdeal.Value
import proofs.«173758_j34514357191359_2_alg».proof.Proof.Gen.ReferenceIdeal
import proofs.«173758_j34514357191359_2_alg».proof.Proof.Gen.ReferenceIdeal.Run
import proofs.«173758_j34514357191359_2_alg».proof.Proof.Gen.ReferenceIdeal.Read
import proofs.«173758_j34514357191359_2_alg».proof.Proof.Gen.Pre_finite_inputs
import proofs.«173758_j34514357191359_2_alg».proof.Proof.KernelValue
import proofs.«173758_j34514357191359_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the aggregate of each image (read off its run block by
    block) and the reference's at the same aggregate (read off its run entry by entry), of arguments that agree. -/
theorem algebraic : Cert.algebraic_KernelIdeal_ReferenceIdeal := by
  intro m ρ m' ρ' _ hagree
  refine ⟨fun c => Cert.KernelIdeal.Whole.res m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2,
    Cert.ReferenceIdeal.RefValue.ref_result]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
